-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x1024 : Shape := ⟨3, ![8, 2048, 1024]⟩
abbrev S8x1024x2048 : Shape := ⟨3, ![8, 1024, 2048]⟩
abbrev S16384 : Shape := ⟨1, ![16384]⟩
abbrev S9 : Shape := ⟨1, ![9]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg5 : FVec F S16384 .f32) (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  let main_v19 : FVec F S16384 .f32 := Host.absf main_arg5
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S8192x2048 .f32) (main_arg1 : FVec F S8x2048x1024 .f32) (main_arg2 : FVec F S8x2048x1024 .f32) (main_arg3 : FVec F S8x1024x2048 .f32) (main_arg4 : IVec S16384 32) (main_arg5 : FVec F S16384 .f32) (main_arg6 : IVec S9 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x1024x2048 .f32 := Host.absf main_arg3
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_arg5 main_v13 main_v16
-- ==== Kernel.lean ====
abbrev S8192x2048 : Shape := ⟨2, ![8192, 2048]⟩
abbrev S8x2048x1024 : Shape := ⟨3, ![8, 2048, 1024]⟩
abbrev S8x1024x2048 : Shape := ⟨3, ![8, 1024, 2048]⟩
abbrev S16384 : Shape := ⟨1, ![16384]⟩
abbrev S9 : Shape := ⟨1, ![9]⟩
abbrev S8x2048 : Shape := ⟨2, ![8, 2048]⟩
abbrev S8x2048x1 : Shape := ⟨3, ![8, 2048, 1]⟩
abbrev S_ : Shape := ⟨0, ![]⟩
abbrev S8x2048x2048 : Shape := ⟨3, ![8, 2048, 2048]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x256x1 : Shape := ⟨3, ![1, 256, 1]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S256x1 : Shape := ⟨2, ![256, 1]⟩
abbrev S16384x2048 : Shape := ⟨2, ![16384, 2048]⟩
abbrev S16384x1 : Shape := ⟨2, ![16384, 1]⟩

abbrev nBuf : Space → Nat
  | .hbm => 36
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8x2048x1024, .f32⟩
  | .hbm, ⟨2, _⟩ => ⟨S8x2048x1024, .f32⟩
  | .hbm, ⟨3, _⟩ => ⟨S8x1024x2048, .f32⟩
  | .hbm, ⟨4, _⟩ => ⟨S16384, .i32⟩
  | .hbm, ⟨5, _⟩ => ⟨S16384, .f32⟩
  | .hbm, ⟨6, _⟩ => ⟨S9, .i32⟩
  | .hbm, ⟨7, _⟩ => ⟨S8x2048, .i32⟩
  | .hbm, ⟨8, _⟩ => ⟨S8x2048x1, .f32⟩
  | .hbm, ⟨9, _⟩ => ⟨S8192x2048, .bf16⟩
  | .hbm, ⟨10, _⟩ => ⟨S_, .i32⟩
  | .hbm, ⟨11, _⟩ => ⟨S8x2048, .i32⟩
  | .hbm, ⟨12, _⟩ => ⟨S8x2048, .i1⟩
  | .hbm, ⟨13, _⟩ => ⟨S_, .i32⟩
  | .hbm, ⟨14, _⟩ => ⟨S8x2048, .i32⟩
  | .hbm, ⟨15, _⟩ => ⟨S8x2048, .i32⟩
  | .hbm, ⟨16, _⟩ => ⟨S8x2048, .i32⟩
  | .hbm, ⟨17, _⟩ => ⟨S8x2048x1, .i32⟩
  | .hbm, ⟨18, _⟩ => ⟨S8x2048x2048, .bf16⟩
  | .hbm, ⟨19, _⟩ => ⟨S8x2048x1024, .bf16⟩
  | .hbm, ⟨20, _⟩ => ⟨S8x2048x1024, .bf16⟩
  | .hbm, ⟨21, _⟩ => ⟨S8x1024x2048, .bf16⟩
  | .hbm, ⟨22, _⟩ => ⟨S8x2048x2048, .f32⟩
  | .hbm, ⟨23, _⟩ => ⟨S_, .f32⟩
  | .hbm, ⟨24, _⟩ => ⟨S8192x2048, .f32⟩
  | .hbm, ⟨25, _⟩ => ⟨S16384, .i32⟩
  | .hbm, ⟨26, _⟩ => ⟨S16384x2048, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S8192x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x256x1, .f32⟩
  | .local _ .vmem, ⟨9, _⟩ => ⟨S1x256x1, .f32⟩
  | .local _ .vmem, ⟨10, _⟩ => ⟨S1x256x2048, .f32⟩
  | .local _ .vmem, ⟨11, _⟩ => ⟨S1x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16384_S8x2048 : S16384.ShapeCasts S8x2048
  shapeCasts_S16384_S8x2048x1 : S16384.ShapeCasts S8x2048x1
  bitsLt_bf16_f32 : FTy.bits .bf16 < FTy.bits .f32
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  shapeCasts_S256x2048_S1x256x2048 : S256x2048.ShapeCasts S1x256x2048
  bcast_S_S8192x2048 : S_.BroadcastsInDim S8192x2048 (![] : Fin 0 → Fin S8192x2048.rank)
  shapeCasts_S8x2048_S16384 : S8x2048.ShapeCasts S16384
  shapeCasts_S8x2048x2048_S16384x2048 : S8x2048x2048.ShapeCasts S16384x2048
  bcast_S_S16384 : S_.BroadcastsInDim S16384 (![] : Fin 0 → Fin S16384.rank)
  bcast_S16384_S16384x1_0 : S16384.BroadcastsInDim S16384x1 (![0] : Fin 1 → Fin S16384x1.rank)
  gather_S8192x2048_S8x2048x1_S8x2048x2048_2_0_n_n_0_2_12048_wf : GatherDims.WF S8192x2048 S8x2048x1 S8x2048x2048 [2] [0] [] [0] [] 2 ![1, 2048]
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  scatter_S8192x2048_S16384x1_S16384x2048_1_0_0_1_wf : ScatterDims.WF S8192x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .bf16 = 32 ∨ (Rect.block (s := S8x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .bf16 = 32 ∨ (Rect.block (s := S8x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S8x2048x1.size a
  hwx0_4 : ∀ i : grid0.Coords, EltTy.bits .f32 = 32 ∨ (Rect.block (s := S8x2048x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def gather_S8192x2048_S8x2048x1_S8x2048x2048_2_0_n_n_0_2_12048 : GatherDims S8192x2048 S8x2048x1 S8x2048x2048 where
  offsetDims := [2]
  collapsedSliceDims := [0]
  operandBatchingDims := []
  startIndicesBatchingDims := []
  startIndexMap := [0]
  indexVectorDim := 2
  sliceSizes := ![1, 2048]
  wf := gather_S8192x2048_S8x2048x1_S8x2048x2048_2_0_n_n_0_2_12048_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

abbrev win0_0 : Pipeline.Window sig grid0 :=
  Pipeline.Window.ofSpec (Memref.whole main_v9) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8x2048x1024 : Shape := ⟨3, ![8, 2048, 1024]⟩
abbrev S8x1024x2048 : Shape := ⟨3, ![8, 1024, 2048]⟩
abbrev S16384 : Shape := ⟨1, ![16384]⟩
abbrev S9 : Shape := ⟨1, ![9]⟩
abbrev S8x2048 : Shape := ⟨2, ![8, 2048]⟩
abbrev S_ : Shape := ⟨0, ![]⟩
abbrev S8x2048x1 : Shape := ⟨3, ![8, 2048, 1]⟩
abbrev S8x2048x2048 : Shape := ⟨3, ![8, 2048, 2048]⟩
abbrev S16384x2048 : Shape := ⟨2, ![16384, 2048]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x1024, .f32⟩
  | .hbm, ⟨2, _⟩ => ⟨S8x2048x1024, .f32⟩
  | .hbm, ⟨3, _⟩ => ⟨S8x1024x2048, .f32⟩
  | .hbm, ⟨4, _⟩ => ⟨S16384, .i32⟩
  | .hbm, ⟨5, _⟩ => ⟨S16384, .f32⟩
  | .hbm, ⟨6, _⟩ => ⟨S9, .i32⟩
  | .hbm, ⟨7, _⟩ => ⟨S8x2048, .i32⟩
  | .hbm, ⟨8, _⟩ => ⟨S8x2048, .f32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x2048, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8192x2048, .f32⟩
  | .hbm, ⟨36, _⟩ => ⟨S16384, .i32⟩
  | .hbm, ⟨37, _⟩ => ⟨S16384x2048, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  shapeCasts_S16384_S8x2048 : S16384.ShapeCasts S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1024 : S_.BroadcastsInDim S8x2048x1024 (![] : Fin 0 → Fin S8x2048x1024.rank)
  bcast_S8x2048x1_S8x2048x2048_0_1_2 : S8x2048x1.BroadcastsInDim S8x2048x2048 (![0, 1, 2] : Fin 3 → Fin S8x2048x2048.rank)
  bcast_S_S8192x2048 : S_.BroadcastsInDim S8192x2048 (![] : Fin 0 → Fin S8192x2048.rank)
  shapeCasts_S8x2048_S16384 : S8x2048.ShapeCasts S16384
  shapeCasts_S8x2048x2048_S16384x2048 : S8x2048x2048.ShapeCasts S16384x2048
  bcast_S_S16384 : S_.BroadcastsInDim S16384 (![] : Fin 0 → Fin S16384.rank)
  bcast_S16384_S16384x1_0 : S16384.BroadcastsInDim S16384x1 (![0] : Fin 1 → Fin S16384x1.rank)
  gather_S8192x2048_S8x2048x1_S8x2048x2048_2_0_n_n_0_2_12048_wf : GatherDims.WF S8192x2048 S8x2048x1 S8x2048x2048 [2] [0] [] [0] [] 2 ![1, 2048]
  dot_S8x2048x2048_S8x2048x1024_S8x2048x1024_2_1_1_2_0_0_wf : DotDims.WF S8x2048x2048 S8x2048x1024 S8x2048x1024 [2] [1] [1] [2] [0] [0]
  dot_S8x2048x1024_S8x1024x2048_S8x2048x2048_2_1_1_2_0_0_wf : DotDims.WF S8x2048x1024 S8x1024x2048 S8x2048x2048 [2] [1] [1] [2] [0] [0]
  scatter_S8192x2048_S16384x1_S16384x2048_1_0_0_1_wf : ScatterDims.WF S8192x2048 S16384x1 S16384x2048 [1] [0] [0] 1

variable [Facts₀]

def gather_S8192x2048_S8x2048x1_S8x2048x2048_2_0_n_n_0_2_12048 : GatherDims S8192x2048 S8x2048x1 S8x2048x2048 where
  offsetDims := [2]
  collapsedSliceDims := [0]
  operandBatchingDims := []
  startIndicesBatchingDims := []
  startIndexMap := [0]
  indexVectorDim := 2
  sliceSizes := ![1, 2048]
  wf := gather_S8192x2048_S8x2048x1_S8x2048x2048_2_0_n_n_0_2_12048_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

class Facts : Prop extends Facts₀ where

variable [Facts]
-- ==== Proof.Spec.lean ====
/-
  The mathematics both programs compute, stated once over the extended reals and over literal index types.

  Eight experts each own 2048 slots.  Slot `c` of expert `e` carries one gathered activation row
  `xg[e, c, ·]` (2048 entries) and one routing score `sc e c`.  Expert `e` has two input matrices
  `w1[e]`, `w2[e]` (2048 × 1024) and one output matrix `w3[e]` (1024 × 2048).  For the slot:

    gate    g_D = Σ_d xg[e, c, d] · w1[e, d, D]
    value   v_D = Σ_d xg[e, c, d] · w2[e, d, D]
    hidden  h_D = (g_D · σ(g_D)) · v_D           σ the logistic function  1 / (1 + exp (−x))
    out     o_k = (Σ_D h_D · w3[e, D, k]) · sc e c

  Every sum is a finite sum in the commutative monoid of extended reals, so no order of summation is
  part of the statement, and no finiteness of the entries is assumed anywhere.
-/
import Idealize.ShloMosaic.PureOps.Ideal
import Idealize.ShloMosaic.Lib.ValueIdx

noncomputable section

namespace Cert.MoE

open Idealize.ShloMosaic Idealize.ShloMosaic.ValueIdx

/-- One projection of a slot's activation row through an expert's `2048 × 1024` matrix: entry `D`. -/
def proj (xg : (⟨3, ![8, 2048, 2048]⟩ : Shape).Idx → EReal) (w : (⟨3, ![8, 2048, 1024]⟩ : Shape).Idx → EReal)
    (e : Fin 8) (c : Fin 2048) (D : Fin 1024) : EReal :=
  ∑ d : Fin 2048, xg (ix3 e c d) * w (ix3 e d D)

/-- The gated hidden entry `(g · σ(g)) · v`. -/
def gated (xg : (⟨3, ![8, 2048, 2048]⟩ : Shape).Idx → EReal) (w1 w2 : (⟨3, ![8, 2048, 1024]⟩ : Shape).Idx → EReal)
    (e : Fin 8) (c : Fin 2048) (D : Fin 1024) : EReal :=
  (proj xg w1 e c D * Ideal.logistic (proj xg w1 e c D)) * proj xg w2 e c D

/-- The scored expert output, as one array over `[8, 2048, 2048]`. -/
def expertOut (xg : (⟨3, ![8, 2048, 2048]⟩ : Shape).Idx → EReal) (w1 w2 : (⟨3, ![8, 2048, 1024]⟩ : Shape).Idx → EReal)
    (w3 : (⟨3, ![8, 1024, 2048]⟩ : Shape).Idx → EReal) (sc : Fin 8 → Fin 2048 → EReal) :
    (⟨3, ![8, 2048, 2048]⟩ : Shape).Idx → EReal := fun i =>
  (∑ D : Fin 1024, gated xg w1 w2 (i 0) (i 1) D * w3 (ix3 (i 0) D (i 2))) * sc (i 0) (i 1)

/-- The f32 word of `1.0` is the extended real `1`. -/
theorem one_f32 : Ideal.ofBits .f32 0x3F800000#32 = 1 := by
  simp [Ideal.ofBits, Ideal.ieee, -EReal.coe_mul]; norm_num

/-- The host's spelling of the logistic function, `1 / (1 + exp (−x))` in its own division, negation and
    exponential, is the logistic function on every extended real. -/
theorem logistic_host (x : EReal) :
    FloatOps.hostDivf (F := Ideal) (φ := .f32) 1 (FloatOps.addf (F := Ideal) (φ := .f32) 1
      (FloatOps.hostUnary (F := Ideal) (φ := .f32) .exp (FloatOps.hostNegf (F := Ideal) (φ := .f32) x))) = Ideal.logistic x := rfl

end Cert.MoE

end
-- ==== Proof.RefValue.lean ====
/-
  The reference, read at an index, is the specification.

  The reference computes, after its row gather, two batched contractions over the model axis (the gate and
  the value projections), the gated product with the logistic function spelt as `1 / (1 + exp (−g))`, a third
  batched contraction over the hidden axis, and the product with the slot's score broadcast along the output
  axis.  Each batched contraction read at `(e, c, ·)` is a plain finite sum over its one contracted axis, the
  batch coordinate `e` simply carried along; the score of slot `(e, c)` sits at position `e · 2048 + c` of the
  flat score vector.  The gathered rows stay an opaque array here: both programs gather them the same way.
-/
import proofs.«133937_j15925738733697_1_alg».proof.Proof.Gen.ReferenceIdeal.Read
import proofs.«133937_j15925738733697_1_alg».proof.Proof.Spec

noncomputable section

namespace Cert.ReferenceIdeal.RefValue

open Cert.ReferenceIdeal Cert.ReferenceIdeal.Gen Cert.ReferenceIdeal.Read Cert.MoE
open Idealize.ShloMosaic Idealize.ShloMosaic.ValueIdx

/-- Slot `(e, c)` in the flat vector of 16384 assignments. -/
def slot (e : Fin 8) (c : Fin 2048) : (⟨1, ![16384]⟩ : Shape).Idx :=
  ix1 ⟨e.val * 2048 + c.val, by have := e.isLt; have := c.isLt; omega⟩

/-! ### The operand indices of the three contractions, coordinate by coordinate -/

theorem lidx9 (e : Fin 8) (c : Fin 2048) (D : Fin 1024) (k : Fin 2048) :
    lidx_main_v9 (ix3 e c D) k = ix3 e c k :=
  funext fun a => Fin.ext (by match a with | ⟨0, _⟩ => rfl | ⟨1, _⟩ => rfl | ⟨2, _⟩ => rfl)
theorem ridx9 (e : Fin 8) (c : Fin 2048) (D : Fin 1024) (k : Fin 2048) :
    ridx_main_v9 (ix3 e c D) k = ix3 e k D :=
  funext fun a => Fin.ext (by match a with | ⟨0, _⟩ => rfl | ⟨1, _⟩ => rfl | ⟨2, _⟩ => rfl)
theorem lidx10 (e : Fin 8) (c : Fin 2048) (D : Fin 1024) (k : Fin 2048) :
    lidx_main_v10 (ix3 e c D) k = ix3 e c k :=
  funext fun a => Fin.ext (by match a with | ⟨0, _⟩ => rfl | ⟨1, _⟩ => rfl | ⟨2, _⟩ => rfl)
theorem ridx10 (e : Fin 8) (c : Fin 2048) (D : Fin 1024) (k : Fin 2048) :
    ridx_main_v10 (ix3 e c D) k = ix3 e k D :=
  funext fun a => Fin.ext (by match a with | ⟨0, _⟩ => rfl | ⟨1, _⟩ => rfl | ⟨2, _⟩ => rfl)
theorem lidx19 (e : Fin 8) (c : Fin 2048) (q : Fin 2048) (D : Fin 1024) :
    lidx_main_v19 (ix3 e c q) D = ix3 e c D :=
  funext fun a => Fin.ext (by match a with | ⟨0, _⟩ => rfl | ⟨1, _⟩ => rfl | ⟨2, _⟩ => rfl)
theorem ridx19 (e : Fin 8) (c : Fin 2048) (q : Fin 2048) (D : Fin 1024) :
    ridx_main_v19 (ix3 e c q) D = ix3 e D q :=
  funext fun a => Fin.ext (by match a with | ⟨0, _⟩ => rfl | ⟨1, _⟩ => rfl | ⟨2, _⟩ => rfl)

variable [Cert.ReferenceIdeal.Facts]

/-- The gate projection. -/
theorem gate_eq (x0 : (⟨S8192x2048, .f32⟩ : BufTy).Contents (Elt Ideal)) (x1 : (⟨S8x2048x1024, .f32⟩ : BufTy).Contents (Elt Ideal))
    (x4 : (⟨S16384, .i32⟩ : BufTy).Contents (Elt Ideal)) (e : Fin 8) (c : Fin 2048) (D : Fin 1024) :
    val_main_v9 (F := Ideal) x0 x1 x4 (ix3 e c D) = proj (val_main_v8 (F := Ideal) x0 x4) x1 e c D := by
  rw [val_main_v9_apply]
  unfold proj
  exact Finset.sum_congr rfl fun k _ => by rw [lidx9, ridx9]

/-- The value projection. -/
theorem value_eq (x0 : (⟨S8192x2048, .f32⟩ : BufTy).Contents (Elt Ideal)) (x2 : (⟨S8x2048x1024, .f32⟩ : BufTy).Contents (Elt Ideal))
    (x4 : (⟨S16384, .i32⟩ : BufTy).Contents (Elt Ideal)) (e : Fin 8) (c : Fin 2048) (D : Fin 1024) :
    val_main_v10 (F := Ideal) x0 x2 x4 (ix3 e c D) = proj (val_main_v8 (F := Ideal) x0 x4) x2 e c D := by
  rw [val_main_v10_apply]
  unfold proj
  exact Finset.sum_congr rfl fun k _ => by rw [lidx10, ridx10]

/-- The gated hidden entry: the host's `g · (1 / (1 + exp (−g))) · v` is `(g · σ(g)) · v`. -/
theorem gated_eq (x0 : (⟨S8192x2048, .f32⟩ : BufTy).Contents (Elt Ideal)) (x1 x2 : (⟨S8x2048x1024, .f32⟩ : BufTy).Contents (Elt Ideal))
    (x4 : (⟨S16384, .i32⟩ : BufTy).Contents (Elt Ideal)) (e : Fin 8) (c : Fin 2048) (D : Fin 1024) :
    val_main_v18 (F := Ideal) x0 x1 x2 x4 (ix3 e c D) = gated (val_main_v8 (F := Ideal) x0 x4) x1 x2 e c D := by
  rw [val_main_v18_apply, val_main_v17_apply, val_main_v16_apply, val_main_v15_apply, val_main_cst_1_apply,
    val_main_v14_apply, val_main_v13_apply, val_main_cst_apply, val_main_v12_apply, val_main_v11_apply,
    gate_eq, value_eq]
  unfold gated
  have h1 : FloatOps.ofBits (F := Ideal) .f32 0x3F800000#32 = (1 : EReal) := one_f32
  rw [h1]
  rfl

/-- The reference's array before its scatter is the specification's scored expert output. -/
theorem out_eq (x0 : (⟨S8192x2048, .f32⟩ : BufTy).Contents (Elt Ideal)) (x1 x2 : (⟨S8x2048x1024, .f32⟩ : BufTy).Contents (Elt Ideal))
    (x3 : (⟨S8x1024x2048, .f32⟩ : BufTy).Contents (Elt Ideal)) (x4 : (⟨S16384, .i32⟩ : BufTy).Contents (Elt Ideal))
    (x5 : (⟨S16384, .f32⟩ : BufTy).Contents (Elt Ideal)) :
    val_main_v22 (F := Ideal) x0 x1 x2 x3 x4 x5
      = expertOut (val_main_v8 (F := Ideal) x0 x4) x1 x2 x3 (fun e c => x5 (slot e c)) := by
  funext i
  obtain ⟨e, c, q, rfl⟩ : ∃ (e : Fin 8) (c : Fin 2048) (q : Fin 2048), i = ix3 e c q := ⟨i 0, i 1, i 2, eq_ix3 i⟩
  rw [val_main_v22_apply, val_main_v19_apply, val_main_v21_apply, val_main_v20_apply, val_main_v1_apply]
  show (∑ D : Fin 1024, val_main_v18 (F := Ideal) x0 x1 x2 x4 (lidx_main_v19 (ix3 e c q) D) * x3 (ridx_main_v19 (ix3 e c q) D))
      * x5 (idx_main_v1 (idx_main_v20 (idx_main_v21 (ix3 e c q))))
    = (∑ D : Fin 1024, gated (val_main_v8 (F := Ideal) x0 x4) x1 x2 e c D * x3 (ix3 e D q)) * x5 (slot e c)
  have hs : idx_main_v1 (idx_main_v20 (idx_main_v21 (ix3 e c q))) = slot e c :=
    funext fun a => Fin.ext (by match a with | ⟨0, _⟩ => rfl)
  rw [hs]
  refine congrArg (· * x5 (slot e c)) (Finset.sum_congr rfl fun D _ => ?_)
  rw [lidx19, ridx19, gated_eq]

end Cert.ReferenceIdeal.RefValue

end
-- ==== Proof.Payload.lean ====
/-
  The kernel body's stored block, read at an index.

  At one grid point the body holds a `[1, 256, 2048]` block of gathered activation rows, the expert's three weight
  matrices as `[1, ·, ·]` blocks, and a `[1, 256, 1]` column of scores.  It drops the leading unit axis of each,
  multiplies rows by the two input matrices into a zero accumulator (so each product is a plain finite sum over the
  2048 model coordinates), forms `(g · σ(g)) · v` entry by entry, multiplies by the output matrix (a finite sum over
  the 1024 hidden coordinates), scales row `p` by the score in row `p` of the column, and puts the unit axis back.
  The change of float format between the stages is the identity on extended reals.
-/
import proofs.«133937_j15925738733697_1_alg».proof.Proof.Gen.KernelIdeal.Skeleton
import proofs.«133937_j15925738733697_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.MoE Idealize.ShloMosaic Idealize.ShloMosaic.ValueIdx
open Facts₀ Facts

/-! ### Layout operations at an index -/

/-- A `[1, A, B]` block viewed as `[A, B]`: entry `(p, q)` is entry `(0, p, q)`. -/
theorem cast_drop {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 (0 : Fin 1) p q) :=
  shapeCast_apply x h (ix2 p q) (ix3 (0 : Fin 1) p q) (by
    rw [Shape.rowMajor_val_three, Shape.rowMajor_val_two]
    show (0 * A + p.val) * B + q.val = p.val * B + q.val
    simp)

/-- An `[A, B]` matrix stored as a `[1, A, B]` block: entry `(z, p, q)` is entry `(p, q)`. -/
theorem cast_add {α : Type} {A B : Nat} (x : (⟨2, ![A, B]⟩ : Shape).Idx → α)
    (h : (⟨2, ![A, B]⟩ : Shape).ShapeCasts ⟨3, ![1, A, B]⟩) (z : Fin 1) (p : Fin A) (q : Fin B) :
    shapeCast ⟨3, ![1, A, B]⟩ x h (ix3 z p q) = x (ix2 p q) :=
  shapeCast_apply x h (ix3 z p q) (ix2 p q) (by
    rw [Shape.rowMajor_val_two, Shape.rowMajor_val_three]
    show p.val * B + q.val = (z.val * A + p.val) * B + q.val
    have hz : z.val = 0 := by have := z.isLt; omega
    rw [hz]; simp)

/-- A `[256, 1]` column broadcast along 2048 lanes: entry `(p, q)` is the column's entry `(p, 0)`. -/
theorem bcast_col {α : Type} (x : (⟨2, ![256, 1]⟩ : Shape).Idx → α)
    (h : (⟨2, ![256, 1]⟩ : Shape).Broadcasts ⟨2, ![256, 2048]⟩) (p : Fin 256) (q : Fin 2048) :
    broadcastTo ⟨2, ![256, 2048]⟩ x h (ix2 p q) = x (ix2 p (0 : Fin 1)) :=
  broadcastTo_apply x h (ix2 p q) (ix2 p (0 : Fin 1)) (fun a => by
    match a with
    | ⟨0, _⟩ => show p.val = if (256 : Nat) = 1 then 0 else p.val; rw [if_neg (by decide)]
    | ⟨1, _⟩ => show 0 = if (1 : Nat) = 1 then 0 else q.val; rw [if_pos rfl])

variable [Cert.KernelIdeal.Facts]

/-! ### The two matrix products into a zero accumulator, as finite sums -/

/-! Each operand index of a product, coordinate by coordinate: the row coordinate of the left operand and the column
    coordinate of the right one are the output's, the other two are the contraction coordinate. -/

theorem dIn_lhs0 (i : S256x1024.Idx) (k : dot_S256x2048_S2048x1024_S256x1024_1_0_0_1_n_n.contr.Idx) : (dot_S256x2048_S2048x1024_S256x1024_1_0_0_1_n_n.lhsIdx i k 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dIn_lhs1 (i : S256x1024.Idx) (k : dot_S256x2048_S2048x1024_S256x1024_1_0_0_1_n_n.contr.Idx) : (dot_S256x2048_S2048x1024_S256x1024_1_0_0_1_n_n.lhsIdx i k 1).val = (k ⟨0, by decide⟩).val :=
  dot_S256x2048_S2048x1024_S256x1024_1_0_0_1_n_n.lhsIdx_val_of_single rfl i k
theorem dIn_rhs0 (i : S256x1024.Idx) (k : dot_S256x2048_S2048x1024_S256x1024_1_0_0_1_n_n.contr.Idx) : (dot_S256x2048_S2048x1024_S256x1024_1_0_0_1_n_n.rhsIdx i k 0).val = (k ⟨0, by decide⟩).val :=
  dot_S256x2048_S2048x1024_S256x1024_1_0_0_1_n_n.rhsIdx_val_of_single rfl i k
theorem dIn_rhs1 (i : S256x1024.Idx) (k : dot_S256x2048_S2048x1024_S256x1024_1_0_0_1_n_n.contr.Idx) : (dot_S256x2048_S2048x1024_S256x1024_1_0_0_1_n_n.rhsIdx i k 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Rows times an input matrix: entry `(p, D)` is the sum over the 2048 model coordinates. -/
theorem mm_in_apply (a : FVec Ideal S256x2048 .bf16) (b : FVec Ideal S2048x1024 .bf16) (p : Fin 256) (D : Fin 1024) :
    matmul dot_S256x2048_S2048x1024_S256x1024_1_0_0_1_n_n none a b (constant S256x1024 .f32 0x00000000#32) (ix2 p D)
      = ∑ k : Fin 2048, a (ix2 p k) * b (ix2 k D) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p D) ((contrEquiv1 dot_S256x2048_S2048x1024_S256x1024_1_0_0_1_n_n 2048 rfl rfl).symm k) = ix2 p k := funext fun x => Fin.ext (by
    match x with
    | ⟨0, _⟩ => exact dIn_lhs0 _ _
    | ⟨1, _⟩ => exact (dIn_lhs1 _ _).trans hk)
  have er : dot_S256x2048_S2048x1024_S256x1024_1_0_0_1_n_n.rhsIdx (ix2 p D) ((contrEquiv1 dot_S256x2048_S2048x1024_S256x1024_1_0_0_1_n_n 2048 rfl rfl).symm k) = ix2 k D := funext fun x => Fin.ext (by
    match x with
    | ⟨0, _⟩ => exact (dIn_rhs0 _ _).trans hk
    | ⟨1, _⟩ => exact dIn_rhs1 _ _)
  rw [el, er]

theorem dOut_lhs0 (i : S256x2048.Idx) (k : dot_S256x1024_S1024x2048_S256x2048_1_0_0_1_n_n.contr.Idx) : (dot_S256x1024_S1024x2048_S256x2048_1_0_0_1_n_n.lhsIdx i k 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem dOut_lhs1 (i : S256x2048.Idx) (k : dot_S256x1024_S1024x2048_S256x2048_1_0_0_1_n_n.contr.Idx) : (dot_S256x1024_S1024x2048_S256x2048_1_0_0_1_n_n.lhsIdx i k 1).val = (k ⟨0, by decide⟩).val :=
  dot_S256x1024_S1024x2048_S256x2048_1_0_0_1_n_n.lhsIdx_val_of_single rfl i k
theorem dOut_rhs0 (i : S256x2048.Idx) (k : dot_S256x1024_S1024x2048_S256x2048_1_0_0_1_n_n.contr.Idx) : (dot_S256x1024_S1024x2048_S256x2048_1_0_0_1_n_n.rhsIdx i k 0).val = (k ⟨0, by decide⟩).val :=
  dot_S256x1024_S1024x2048_S256x2048_1_0_0_1_n_n.rhsIdx_val_of_single rfl i k
theorem dOut_rhs1 (i : S256x2048.Idx) (k : dot_S256x1024_S1024x2048_S256x2048_1_0_0_1_n_n.contr.Idx) : (dot_S256x1024_S1024x2048_S256x2048_1_0_0_1_n_n.rhsIdx i k 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- Hidden rows times the output matrix: entry `(p, q)` is the sum over the 1024 hidden coordinates. -/
theorem mm_out_apply (a : FVec Ideal S256x1024 .bf16) (b : FVec Ideal S1024x2048 .bf16) (p : Fin 256) (q : Fin 2048) :
    matmul dot_S256x1024_S1024x2048_S256x2048_1_0_0_1_n_n none a b (constant S256x2048 .f32 0x00000000#32) (ix2 p q)
      = ∑ k : Fin 1024, a (ix2 p k) * b (ix2 k q) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k := funext fun x => Fin.ext (by
    match x with
    | ⟨0, _⟩ => exact dOut_lhs0 _ _
    | ⟨1, _⟩ => exact (dOut_lhs1 _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q := funext fun x => Fin.ext (by
    match x with
    | ⟨0, _⟩ => exact (dOut_rhs0 _ _).trans hk
    | ⟨1, _⟩ => exact dOut_rhs1 _ _)
  rw [el, er]

/-! ### The body's stages -/

/-- A block of rows through one input matrix. -/
def projBlk (x : Vec Ideal S1x256x2048 .bf16) (w : Vec Ideal S1x2048x1024 .bf16) : FVec Ideal S256x1024 .f32 :=
  matmul dot_S256x2048_S2048x1024_S256x1024_1_0_0_1_n_n none
    (shapeCast S256x2048 x Facts₀.shapeCasts_S1x256x2048_S256x2048 : FVec Ideal S256x2048 .bf16)
    (shapeCast S2048x1024 w Facts₀.shapeCasts_S1x2048x1024_S2048x1024 : FVec Ideal S2048x1024 .bf16)
    (constant S256x1024 .f32 0x00000000#32)

/-- The gated product `(g · σ(g)) · v`, narrowed to the matrix unit's input format. -/
def gateBlk (g v : FVec Ideal S256x1024 .f32) : FVec Ideal S256x1024 .bf16 :=
  truncf .bf16 (mulf (mulf g (logistic g)) v) Facts₀.bitsLt_bf16_f32

/-- Through the output matrix, scaled by the score column, as the stored `[1, 256, 2048]` block. -/
def outBlk (h : FVec Ideal S256x1024 .bf16) (w3 : Vec Ideal S1x1024x2048 .bf16) (s : Vec Ideal S1x256x1 .f32) : FVec Ideal S1x256x2048 .f32 :=
  shapeCast S1x256x2048
    (mulf (matmul dot_S256x1024_S1024x2048_S256x2048_1_0_0_1_n_n none h
        (shapeCast S1024x2048 w3 Facts₀.shapeCasts_S1x1024x2048_S1024x2048 : FVec Ideal S1024x2048 .bf16)
        (constant S256x2048 .f32 0x00000000#32))
      (broadcastTo S256x2048 (shapeCast S256x1 s Facts₀.shapeCasts_S1x256x1_S256x1 : FVec Ideal S256x1 .f32) Facts₀.broadcasts_S256x1_S256x2048 : FVec Ideal S256x2048 .f32))
    Facts₀.shapeCasts_S256x2048_S1x256x2048

/-- The printed payload is these stages composed. -/
theorem pay_eq (x0 : Vec Ideal S1x256x2048 .bf16) (x1 x2 : Vec Ideal S1x2048x1024 .bf16) (x3 : Vec Ideal S1x1024x2048 .bf16)
    (x4 : Vec Ideal S1x256x1 .f32) :
    k0_pay1 (F := Ideal) x0 x1 x2 x3 x4 = outBlk (gateBlk (projBlk x0 x1) (projBlk x0 x2)) x3 x4 := rfl

/-- One projection of row `p` of the block: the sum over the model coordinates. -/
def rowProj (x : Vec Ideal S1x256x2048 .bf16) (w : Vec Ideal S1x2048x1024 .bf16) (p : Fin 256) (D : Fin 1024) : EReal :=
  ∑ d : Fin 2048, x (ix3 (0 : Fin 1) p d) * w (ix3 (0 : Fin 1) d D)

theorem projBlk_apply (x : Vec Ideal S1x256x2048 .bf16) (w : Vec Ideal S1x2048x1024 .bf16) (p : Fin 256) (D : Fin 1024) :
    projBlk x w (ix2 p D) = rowProj x w p D := by
  unfold projBlk rowProj
  rw [mm_in_apply]
  exact Finset.sum_congr rfl fun d _ => by rw [cast_drop, cast_drop]

theorem gateBlk_apply (g v : FVec Ideal S256x1024 .f32) (j : S256x1024.Idx) :
    gateBlk g v j = (g j * Ideal.logistic (g j)) * v j := rfl

theorem outBlk_apply (h : FVec Ideal S256x1024 .bf16) (w3 : Vec Ideal S1x1024x2048 .bf16) (s : Vec Ideal S1x256x1 .f32)
    (z : Fin 1) (p : Fin 256) (q : Fin 2048) :
    outBlk h w3 s (ix3 z p q) = (∑ D : Fin 1024, h (ix2 p D) * w3 (ix3 (0 : Fin 1) D q)) * s (ix3 (0 : Fin 1) p (0 : Fin 1)) := by
  unfold outBlk
  rw [cast_add, mulf_apply, mm_out_apply, bcast_col, cast_drop]
  exact congrArg (· * s (ix3 (0 : Fin 1) p (0 : Fin 1))) (Finset.sum_congr rfl fun D _ => by rw [cast_drop])

/-- THE STORED BLOCK AT AN INDEX: entry `(z, p, q)` is row `p`'s gated hidden vector through column `q` of the output
    matrix, times row `p`'s score. -/
theorem pay_apply (x0 : Vec Ideal S1x256x2048 .bf16) (x1 x2 : Vec Ideal S1x2048x1024 .bf16) (x3 : Vec Ideal S1x1024x2048 .bf16)
    (x4 : Vec Ideal S1x256x1 .f32) (z : Fin 1) (p : Fin 256) (q : Fin 2048) :
    k0_pay1 (F := Ideal) x0 x1 x2 x3 x4 (ix3 z p q)
      = (∑ D : Fin 1024, ((rowProj x0 x1 p D * Ideal.logistic (rowProj x0 x1 p D)) * rowProj x0 x2 p D) * x3 (ix3 (0 : Fin 1) D q))
          * x4 (ix3 (0 : Fin 1) p (0 : Fin 1)) := by
  rw [pay_eq, outBlk_apply]
  exact congrArg (· * x4 (ix3 (0 : Fin 1) p (0 : Fin 1))) (Finset.sum_congr rfl fun D _ => by
    rw [gateBlk_apply, projBlk_apply, projBlk_apply])

/-- THE STORED ENTRY IS THE SPECIFICATION'S: when row `p` of the activation block is row `r` of expert `e`'s gathered
    rows, the three weight blocks are expert `e`'s matrices and row `p` of the score column is slot `(e, r)`'s score,
    entry `(z, p, q)` of the stored block is entry `(e, r, q)` of the scored expert output. -/
theorem pay_spec (x0 : Vec Ideal S1x256x2048 .bf16) (x1 x2 : Vec Ideal S1x2048x1024 .bf16) (x3 : Vec Ideal S1x1024x2048 .bf16)
    (x4 : Vec Ideal S1x256x1 .f32)
    (xg : (⟨3, ![8, 2048, 2048]⟩ : Shape).Idx → EReal) (w1 w2 : (⟨3, ![8, 2048, 1024]⟩ : Shape).Idx → EReal)
    (w3 : (⟨3, ![8, 1024, 2048]⟩ : Shape).Idx → EReal) (sc : Fin 8 → Fin 2048 → EReal)
    (z : Fin 1) (p : Fin 256) (q : Fin 2048) (e : Fin 8) (r : Fin 2048)
    (h0 : ∀ d : Fin 2048, x0 (ix3 (0 : Fin 1) p d) = xg (ix3 e r d))
    (h1 : ∀ (d : Fin 2048) (D : Fin 1024), x1 (ix3 (0 : Fin 1) d D) = w1 (ix3 e d D))
    (h2 : ∀ (d : Fin 2048) (D : Fin 1024), x2 (ix3 (0 : Fin 1) d D) = w2 (ix3 e d D))
    (h3 : ∀ D : Fin 1024, x3 (ix3 (0 : Fin 1) D q) = w3 (ix3 e D q))
    (h4 : x4 (ix3 (0 : Fin 1) p (0 : Fin 1)) = sc e r) :
    k0_pay1 (F := Ideal) x0 x1 x2 x3 x4 (ix3 z p q) = expertOut xg w1 w2 w3 sc (ix3 e r q) := by
  rw [pay_apply, h4]
  show _ = (∑ D : Fin 1024, gated xg w1 w2 e r D * w3 (ix3 e D q)) * sc e r
  have hp1 : ∀ D : Fin 1024, rowProj x0 x1 p D = proj xg w1 e r D := fun D => by
    unfold rowProj proj
    exact Finset.sum_congr rfl fun d _ => by rw [h0, h1]
  have hp2 : ∀ D : Fin 1024, rowProj x0 x2 p D = proj xg w2 e r D := fun D => by
    unfold rowProj proj
    exact Finset.sum_congr rfl fun d _ => by rw [h0, h2]
  refine congrArg (· * sc e r) (Finset.sum_congr rfl fun D _ => ?_)
  rw [hp1, hp2, h3]
  rfl

end Cert.KernelIdeal.Body

end
-- ==== Proof.RegionValue.lean ====
/-
  The region's output array after the run, as ONE function of the arrays the region finds.

  The grid has 8 × 8 points; point `(e, b)` works on expert `e` and on the 256 slots `256·b … 256·b + 255`.  Its
  activation block is rows `256·b + p` of expert `e`'s gathered rows, its weight blocks are expert `e`'s three whole
  matrices (the same for every `b`), its score block the scores of those 256 slots, and the block it writes back is
  rows `256·b + p` of expert `e`'s output.  So entry `(z, p, q)` of what the point writes back is entry
  `(e, 256·b + p, q)` of the scored expert output of the whole arrays, and since the 64 blocks tile the
  `[8, 2048, 2048]` array, the array ends holding exactly that function.
-/
import proofs.«133937_j15925738733697_1_alg».proof.Proof.Gen.KernelIdeal.Frame
import proofs.«133937_j15925738733697_1_alg».proof.Proof.Payload
import Idealize.ShloMosaic.Lib.Pipeline.Value

noncomputable section

namespace Cert.KernelIdeal.RegionValue

open Cert.KernelIdeal Cert.KernelIdeal.Gen Cert.KernelIdeal.Body Cert.MoE
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeros3 : (![0, 0, 0] : Fin 3 → Nat) = fun _ => 0 := funext fun a => by fin_cases a <;> rfl

/-- The printed index maps, decided over the 64 points: the output's block index is `(e, b, 0)` with `e, b ≤ 7`; the
    activation and score windows move with it on both leading axes; the three weight windows follow it on the expert
    axis only and sit at block `0` on the others. -/
theorem idx_facts : ∀ t : Fin cfg0.N,
    win0_5.index t (0 : Fin 3) ≤ 7 ∧ win0_5.index t (1 : Fin 3) ≤ 7 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0 :=
  (by decide +kernel : ∀ t : Fin grid0.N, _)

/-- Every pair (expert, block of 256 slots) is SOME point's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ### Each input block is its array read where the output's block says -/

/-- Row `p` of the activation block is row `256·b + p` of expert `e`'s gathered rows. -/
theorem read_rows (c : Dev nD) (t : Fin cfg0.N) (p : Fin 256) (d : Fin 2048) (e : Fin 8) (r : Fin 2048)
    (he : e.val = win0_5.index t (0 : Fin 3)) (hr : r.val = win0_5.index t (1 : Fin 3) * 256 + p.val) :
    iblk m c 0 t (ix3 (0 : Fin 1) p d) = V m c main_v9 (ix3 e r d) := by
  obtain ⟨-, -, -, a0, a1, a2, -⟩ := idx_facts t
  have h : ((cfg0.win 0).blk t).view.emb (ix3 (0 : Fin 1) p d) = ix3 e r d := by
    funext a; apply Fin.ext
    match a with
    | ⟨0, _⟩ => show win0_0.index t (0 : Fin 3) * 1 + 1 * 0 = e.val; omega
    | ⟨1, _⟩ => show win0_0.index t (1 : Fin 3) * 256 + 1 * p.val = r.val; omega
    | ⟨2, _⟩ => show win0_0.index t (2 : Fin 3) * 2048 + 1 * d.val = d.val; omega
  show V m c main_v9 (((cfg0.win 0).blk t).view.emb (ix3 (0 : Fin 1) p d)) = _
  rw [h]

/-- The first weight block is expert `e`'s gate matrix. -/
theorem read_w1 (c : Dev nD) (t : Fin cfg0.N) (d : Fin 2048) (D : Fin 1024) (e : Fin 8)
    (he : e.val = win0_5.index t (0 : Fin 3)) :
    iblk m c 1 t (ix3 (0 : Fin 1) d D) = V m c main_v10 (ix3 e d D) := by
  obtain ⟨-, -, -, -, -, -, a0, a1, a2, -⟩ := idx_facts t
  have h : ((cfg0.win 1).blk t).view.emb (ix3 (0 : Fin 1) d D) = ix3 e d D := by
    funext a; apply Fin.ext
    match a with
    | ⟨0, _⟩ => show win0_1.index t (0 : Fin 3) * 1 + 1 * 0 = e.val; omega
    | ⟨1, _⟩ => show win0_1.index t (1 : Fin 3) * 2048 + 1 * d.val = d.val; omega
    | ⟨2, _⟩ => show win0_1.index t (2 : Fin 3) * 1024 + 1 * D.val = D.val; omega
  show V m c main_v10 (((cfg0.win 1).blk t).view.emb (ix3 (0 : Fin 1) d D)) = _
  rw [h]

/-- The second weight block is expert `e`'s value matrix. -/
theorem read_w2 (c : Dev nD) (t : Fin cfg0.N) (d : Fin 2048) (D : Fin 1024) (e : Fin 8)
    (he : e.val = win0_5.index t (0 : Fin 3)) :
    iblk m c 2 t (ix3 (0 : Fin 1) d D) = V m c main_v11 (ix3 e d D) := by
  obtain ⟨-, -, -, -, -, -, -, -, -, a0, a1, a2, -⟩ := idx_facts t
  have h : ((cfg0.win 2).blk t).view.emb (ix3 (0 : Fin 1) d D) = ix3 e d D := by
    funext a; apply Fin.ext
    match a with
    | ⟨0, _⟩ => show win0_2.index t (0 : Fin 3) * 1 + 1 * 0 = e.val; omega
    | ⟨1, _⟩ => show win0_2.index t (1 : Fin 3) * 2048 + 1 * d.val = d.val; omega
    | ⟨2, _⟩ => show win0_2.index t (2 : Fin 3) * 1024 + 1 * D.val = D.val; omega
  show V m c main_v11 (((cfg0.win 2).blk t).view.emb (ix3 (0 : Fin 1) d D)) = _
  rw [h]

/-- The third weight block is expert `e`'s output matrix. -/
theorem read_w3 (c : Dev nD) (t : Fin cfg0.N) (D : Fin 1024) (q : Fin 2048) (e : Fin 8)
    (he : e.val = win0_5.index t (0 : Fin 3)) :
    iblk m c 3 t (ix3 (0 : Fin 1) D q) = V m c main_v12 (ix3 e D q) := by
  obtain ⟨-, -, -, -, -, -, -, -, -, -, -, -, a0, a1, a2, -⟩ := idx_facts t
  have h : ((cfg0.win 3).blk t).view.emb (ix3 (0 : Fin 1) D q) = ix3 e D q := by
    funext a; apply Fin.ext
    match a with
    | ⟨0, _⟩ => show win0_3.index t (0 : Fin 3) * 1 + 1 * 0 = e.val; omega
    | ⟨1, _⟩ => show win0_3.index t (1 : Fin 3) * 1024 + 1 * D.val = D.val; omega
    | ⟨2, _⟩ => show win0_3.index t (2 : Fin 3) * 2048 + 1 * q.val = q.val; omega
  show V m c main_v12 (((cfg0.win 3).blk t).view.emb (ix3 (0 : Fin 1) D q)) = _
  rw [h]

/-- Row `p` of the score column is slot `(e, 256·b + p)`'s score. -/
theorem read_score (c : Dev nD) (t : Fin cfg0.N) (p : Fin 256) (e : Fin 8) (r : Fin 2048)
    (he : e.val = win0_5.index t (0 : Fin 3)) (hr : r.val = win0_5.index t (1 : Fin 3) * 256 + p.val) :
    iblk m c 4 t (ix3 (0 : Fin 1) p (0 : Fin 1)) = V m c main_v1 (ix3 e r (0 : Fin 1)) := by
  obtain ⟨-, -, -, -, -, -, -, -, -, -, -, -, -, -, -, a0, a1, a2⟩ := idx_facts t
  have h : ((cfg0.win 4).blk t).view.emb (ix3 (0 : Fin 1) p (0 : Fin 1)) = ix3 e r (0 : Fin 1) := by
    funext a; apply Fin.ext
    match a with
    | ⟨0, _⟩ => show win0_4.index t (0 : Fin 3) * 1 + 1 * 0 = e.val; omega
    | ⟨1, _⟩ => show win0_4.index t (1 : Fin 3) * 256 + 1 * p.val = r.val; omega
    | ⟨2, _⟩ => show win0_4.index t (2 : Fin 3) * 1 + 1 * 0 = 0; omega
  show V m c main_v1 (((cfg0.win 4).blk t).view.emb (ix3 (0 : Fin 1) p (0 : Fin 1))) = _
  rw [h]

/-! ### What a point writes back, the cover, the array -/

/-- The scored expert output of the arrays the region finds: the gathered rows, the three weight arrays, and the
    score of slot `(e, r)` in the `[8, 2048, 1]` score array. -/
def regionOut (c : Dev nD) : Buf (Elt Ideal) ((c : Thread nD τ).loc main_v13) :=
  expertOut (V m c main_v9) (V m c main_v10) (V m c main_v11) (V m c main_v12) (fun e r => V m c main_v1 (ix3 e r (0 : Fin 1)))

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero zeros3]
  simp only [View.ld_unit_zero (S := S1x256x2048) zeros3, View.ld_unit_zero (S := S1x2048x1024) zeros3,
    View.ld_unit_zero (S := S1x1024x2048) zeros3, View.ld_unit_zero (S := S1x256x1) zeros3]
  obtain ⟨b0, b1, b2, -⟩ := idx_facts t
  funext j
  obtain ⟨z, p, q, rfl⟩ : ∃ (z : Fin 1) (p : Fin 256) (q : Fin 2048), j = ix3 z p q := ⟨j 0, j 1, j 2, eq_ix3 j⟩
  have hp : p.val < 256 := p.isLt
  obtain ⟨e, he⟩ : ∃ e : Fin 8, e.val = win0_5.index t (0 : Fin 3) := ⟨⟨win0_5.index t (0 : Fin 3), by omega⟩, rfl⟩
  obtain ⟨r, hr⟩ : ∃ r : Fin 2048, r.val = win0_5.index t (1 : Fin 3) * 256 + p.val :=
    ⟨⟨win0_5.index t (1 : Fin 3) * 256 + p.val, by omega⟩, rfl⟩
  have hemb : ((cfg0.win 5).blk t).view.emb (ix3 z p q) = ix3 e r q := by
    funext a; apply Fin.ext
    match a with
    | ⟨0, _⟩ => show win0_5.index t (0 : Fin 3) * 1 + 1 * z.val = e.val; have := z.isLt; omega
    | ⟨1, _⟩ => show win0_5.index t (1 : Fin 3) * 256 + 1 * p.val = r.val; omega
    | ⟨2, _⟩ => show win0_5.index t (2 : Fin 3) * 2048 + 1 * q.val = q.val; omega
  show k0_pay1 (iblk m c 0 t) (iblk m c 1 t) (iblk m c 2 t) (iblk m c 3 t) (iblk m c 4 t) (ix3 z p q)
    = regionOut m c (((cfg0.win 5).blk t).view.emb (ix3 z p q))
  rw [hemb]
  exact pay_spec (iblk m c 0 t) (iblk m c 1 t) (iblk m c 2 t) (iblk m c 3 t) (iblk m c 4 t)
    (V m c main_v9) (V m c main_v10) (V m c main_v11) (V m c main_v12) (fun e r => V m c main_v1 (ix3 e r (0 : Fin 1)))
    z p q e r
    (fun d => read_rows m c t p d e r he hr) (fun d D => read_w1 m c t d D e he) (fun d D => read_w2 m c t d D e he)
    (fun D => read_w3 m c t D q e he) (read_score m c t p e r he hr)

/-- An index of the array is in point `t`'s block iff each coordinate is in the block's range on its axis. -/
theorem mem_blk (t : Fin cfg0.N) (i : S8x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v13).slice (win0_5.rect t)).set ↔ _
  rw [View.set_slice_whole, Rect.mem_set_unit]
  exact Iff.rfl

/-- The 64 blocks tile the array: index `(e, r, q)` is in the block of the point `(e, r / 256)`. -/
theorem cover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- THE ARRAY after the run is `regionOut`. -/
theorem final (c : Dev nD) : (dats m 0 c).arrAt 5 cfg0.N = regionOut m c :=
  (dats m 0 c).arrAt_eq_of_cover 5 (regionOut m c) (fun t _ => flushed_eq m c t) cover

end Cert.KernelIdeal.RegionValue

end
-- ==== Proof.HostSide.lean ====
/-
  The host operations around the region.

  Before the region the program reshapes the flat token ids to `[8, 2048]` and the flat scores to `[8, 2048, 1]`,
  narrows the activations and the three weight arrays to the matrix unit's input format (the identity on extended
  reals), turns a negative token id `i` into `i + 8192`, and gathers one activation row per slot.  After the region
  it reshapes the `[8, 2048, 2048]` output to `[16384, 2048]`, normalizes the flat token ids the same way, and adds
  row `a` of the reshaped output into row `token a` of a zero `[8192, 2048]` array.  Here each array the region finds,
  and @main's result after the region, is written as that term of the launch arrays.
-/
import proofs.«133937_j15925738733697_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- Token ids normalized: a negative id `i` reads as `i + 8192`; as the `[8, 2048, 1]` column the gather takes. -/
def rowIndex (x4 : (⟨S16384, .i32⟩ : BufTy).Contents (Elt Ideal)) : (⟨S8x2048x1, .i32⟩ : BufTy).Contents (Elt Ideal) :=
  broadcastInDim S8x2048x1 ![0, 1] Facts₀.bcast_S8x2048_S8x2048x1_0_1
    (select
      (cmpi .slt (shapeCast S8x2048 x4 Facts₀.shapeCasts_S16384_S8x2048) (broadcastInDim S8x2048 ![] Facts₀.bcast_S_S8x2048 (constantI S_ 32 0#32)))
      (addi (shapeCast S8x2048 x4 Facts₀.shapeCasts_S16384_S8x2048) (broadcastInDim S8x2048 ![] Facts₀.bcast_S_S8x2048 (constantI S_ 32 8192#32)))
      (shapeCast S8x2048 x4 Facts₀.shapeCasts_S16384_S8x2048))

/-- One activation row per slot. -/
def gatheredRows (x0 : (⟨S8192x2048, .f32⟩ : BufTy).Contents (Elt Ideal)) (x4 : (⟨S16384, .i32⟩ : BufTy).Contents (Elt Ideal)) :
    S8x2048x2048.Idx → EReal :=
  Host.gather gather_S8192x2048_S8x2048x1_S8x2048x2048_2_0_n_n_0_2_12048 x0 (rowIndex x4)

/-- The scatter-add of the reshaped expert output into zeros, by the normalized flat token ids; `T` is the
    `[8, 2048]` token array the program keeps from before the region. -/
def scatterTail (T : (⟨S8x2048, .i32⟩ : BufTy).Contents (Elt Ideal)) (O : S8x2048x2048.Idx → EReal) :
    (⟨S8192x2048, .f32⟩ : BufTy).Contents (Elt Ideal) :=
  Host.scatterAdd scatter_S8192x2048_S16384x1_S16384x2048_1_0_0_1
    (broadcastInDim S8192x2048 ![] Facts₀.bcast_S_S8192x2048 (constant (F := Ideal) S_ .f32 0x00000000#32))
    (broadcastInDim S16384x1 ![0] Facts₀.bcast_S16384_S16384x1_0
      (select
        (cmpi .slt (shapeCast S16384 T Facts₀.shapeCasts_S8x2048_S16384) (broadcastInDim S16384 ![] Facts₀.bcast_S_S16384 (constantI S_ 32 0#32)))
        (addi (shapeCast S16384 T Facts₀.shapeCasts_S8x2048_S16384) (broadcastInDim S16384 ![] Facts₀.bcast_S_S16384 (constantI S_ 32 8192#32)))
        (shapeCast S16384 T Facts₀.shapeCasts_S8x2048_S16384)))
    (shapeCast S16384x2048 O Facts₀.shapeCasts_S8x2048x2048_S16384x2048)

variable (m : (ℓ : Loc nD τ sig) → Buf (Elt Ideal) ℓ)

/-! ### The arrays the region finds -/

theorem entry_rows (c : Dev nD) :
    (V m c main_v9 : S8x2048x2048.Idx → EReal)
      = gatheredRows (m ((c : Thread nD τ).loc main_arg0)) (m ((c : Thread nD τ).loc main_arg4)) := by
  show StableHlo.after hostOps0 (fun b => m (c, b)) (Proc.devRef .tc main_v9) = _
  after_results
  rfl

theorem entry_w1 (c : Dev nD) : (V m c main_v10 : S8x2048x1024.Idx → EReal) = m ((c : Thread nD τ).loc main_arg1) := by
  show StableHlo.after hostOps0 (fun b => m (c, b)) (Proc.devRef .tc main_v10) = _
  after_results
  rfl

theorem entry_w2 (c : Dev nD) : (V m c main_v11 : S8x2048x1024.Idx → EReal) = m ((c : Thread nD τ).loc main_arg2) := by
  show StableHlo.after hostOps0 (fun b => m (c, b)) (Proc.devRef .tc main_v11) = _
  after_results
  rfl

theorem entry_w3 (c : Dev nD) : (V m c main_v12 : S8x1024x2048.Idx → EReal) = m ((c : Thread nD τ).loc main_arg3) := by
  show StableHlo.after hostOps0 (fun b => m (c, b)) (Proc.devRef .tc main_v12) = _
  after_results
  rfl

theorem entry_score (c : Dev nD) :
    (V m c main_v1 : S8x2048x1.Idx → EReal)
      = shapeCast S8x2048x1 (m ((c : Thread nD τ).loc main_arg5)) Facts₀.shapeCasts_S16384_S8x2048x1 := by
  show StableHlo.after hostOps0 (fun b => m (c, b)) (Proc.devRef .tc main_v1) = _
  after_results
  rfl

theorem entry_tok (c : Dev nD) :
    (V0 m c (Proc.devRef .tc main_v0) : S8x2048.Idx → BitVec 32)
      = shapeCast S8x2048 (m ((c : Thread nD τ).loc main_arg4)) Facts₀.shapeCasts_S16384_S8x2048 := by
  show StableHlo.after hostOps0 (fun b => m (c, b)) (Proc.devRef .tc main_v0) = _
  after_results
  rfl

/-! ### @main's result after the region -/

/-- The lines after the region, over names for the two arrays they read: the token array kept from before the
    region (`T`) and the region's output array (`O`). -/
theorem result_tail_of (c : Dev nD) (T : (⟨S8x2048, .i32⟩ : BufTy).Contents (Elt Ideal)) (O : S8x2048x2048.Idx → EReal)
    (hT : Pipeline.withArrays (cfgs 0).spec c (V0 m c) (fun w => (dats m 0 c).arrAt w (cfgs 0).N) (Proc.devRef .tc main_v0) = T)
    (hO : Pipeline.withArrays (cfgs 0).spec c (V0 m c) (fun w => (dats m 0 c).arrAt w (cfgs 0).N) (Proc.devRef .tc main_v13) = O) :
    Pipeline.afterTail₀ cfgs (dats m) 0 (V0 m) [hostOps1] c main_v23 = scatterTail T O := by
  unfold Pipeline.afterTail₀
  show StableHlo.after hostOps1 _ (Proc.devRef .tc main_v23) = _
  after_results
  rw [hT, hO]
  rfl

/-- The lines after the region leave in the result buffer the scatter tail of the token array kept from before
    the region and of the region's output array: neither is touched between the region's exit and its use. -/
theorem result_tail (c : Dev nD) :
    Pipeline.afterTail₀ cfgs (dats m) 0 (V0 m) [hostOps1] c main_v23
      = scatterTail (V0 m c (Proc.devRef .tc main_v0)) ((dats m 0 c).arrAt 5 cfg0.N) :=
  result_tail_of m c _ _ (Pipeline.withArrays_of_ne spec0 c _ _ main_v0 (by decide))
    (Pipeline.withArrays_arr spec0 launch0.win.arr_inj c _ _ 5)

end Cert.KernelIdeal.HostSide

end
-- ==== Proof.KernelValue.lean ====
/-
  The idealized kernel program's run, with @main's result named as one term of the launch arrays.

  The region leaves the scored expert output of the arrays it finds; those arrays are the gathered rows, the three
  weight arrays unchanged (narrowing the float format is the identity on extended reals), and the scores reshaped
  to `[8, 2048, 1]`; the lines after the region scatter-add the reshaped output by the normalized token ids.
-/
import proofs.«133937_j15925738733697_1_alg».proof.Proof.RegionValue
import proofs.«133937_j15925738733697_1_alg».proof.Proof.HostSide

noncomputable section

namespace Cert.KernelIdeal.WholeValue

open Cert.KernelIdeal Cert.KernelIdeal.Gen Cert.KernelIdeal.HostSide Cert.KernelIdeal.RegionValue Cert.MoE
open Idealize.ShloMosaic Idealize.ShloMosaic.TcCoe Idealize.ShloMosaic.ValueIdx Idealize.SL.Sem
open Idealize.ShloMosaic.Pipeline (Dat)

/-- @main's result, from the launch arrays: activations `x0`, the weights `x1 x2 x3`, token ids `x4`, scores `x5`. -/
def result (x0 : (⟨S8192x2048, .f32⟩ : BufTy).Contents (Elt Ideal)) (x1 x2 : (⟨S8x2048x1024, .f32⟩ : BufTy).Contents (Elt Ideal))
    (x3 : (⟨S8x1024x2048, .f32⟩ : BufTy).Contents (Elt Ideal)) (x4 : (⟨S16384, .i32⟩ : BufTy).Contents (Elt Ideal))
    (x5 : (⟨S16384, .f32⟩ : BufTy).Contents (Elt Ideal)) : (⟨S8192x2048, .f32⟩ : BufTy).Contents (Elt Ideal) :=
  scatterTail (shapeCast S8x2048 x4 Facts₀.shapeCasts_S16384_S8x2048)
    (expertOut (gatheredRows x0 x4) x1 x2 x3
      (fun e r => shapeCast S8x2048x1 x5 Facts₀.shapeCasts_S16384_S8x2048x1 (ix3 e r (0 : Fin 1))))

variable (m : (ℓ : Loc nD τ sig) → Buf (Elt Ideal) ℓ) (ρ : Dev nD → PrngReg)

/-- What the lines after the region leave in the result buffer is `result` of the launch arrays. -/
theorem result_eq (c : Dev nD) :
    Pipeline.afterTail₀ cfgs (dats m) 0 (V0 m) [hostOps1] c main_v23
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [result_tail, entry_tok, RegionValue.final]
  unfold regionOut result
  rw [entry_rows, entry_w1, entry_w2, entry_w3, entry_score]

/-- The run: every weakly fair execution terminates with the result buffer at `result` of the launch arrays and the
    argument arrays unchanged. -/
theorem run : θ_run defs (onTc (τ := τ) (main (F := Ideal))) ⟨m, fun _ => 0, ρ⟩ (fun r => ∀ c : Dev nD,
      r.2.mem ((c.tc : Thread nD τ).loc main_v23)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.WholeValue

end
-- ==== Proof.lean ====
/-
  The certificate of a mixture-of-experts feed-forward layer with gated (SwiGLU) experts and balanced routing.

  Sixteen thousand (token, expert) assignments are dealt 2048 to each of eight experts.  Both programs gather one
  activation row per assignment, push it through the expert's gate and value matrices, form `(g · σ(g)) · v` with the
  logistic function `σ`, push that through the expert's output matrix, scale by the assignment's routing score, and
  add the resulting row into the output row of the assignment's token.  The kernel program does the three matrix
  products and the gating inside one grid of 8 × 8 points, on operands narrowed to the matrix unit's input format, and
  applies the logistic function as one operation; the reference does batched contractions on the host and spells
  the logistic function `1 / (1 + exp (−g))`.

  On extended reals narrowing a float format is the identity, a matrix product into a zero accumulator and a batched
  contraction are the same finite sum (a sum in a commutative monoid, so no order of summation is involved), and the
  logistic operation is by definition the host's expression; so the two arrays handed to the final scatter-add agree
  entry by entry, for every input: the claim never uses that the inputs are finite.  The gather before and the
  scatter-add after are the same operations of the same token ids in both programs and are never opened.

  The two programs' frames are the generated ones; the idealized kernel is the printed kernel's own text read at
  the ideal instance (no rewrite was applied), so there is nothing to preserve.
-/
import proofs.«133937_j15925738733697_1_alg».proof.Defs
import proofs.«133937_j15925738733697_1_alg».proof.Proof.Gen.Kernel
import proofs.«133937_j15925738733697_1_alg».proof.Proof.Gen.Kernel.Frame
import proofs.«133937_j15925738733697_1_alg».proof.Proof.Gen.KernelIdeal
import proofs.«133937_j15925738733697_1_alg».proof.Proof.Gen.KernelIdeal.Frame
import proofs.«133937_j15925738733697_1_alg».proof.Proof.Gen.ReferenceIdeal
import proofs.«133937_j15925738733697_1_alg».proof.Proof.Gen.ReferenceIdeal.Run
import proofs.«133937_j15925738733697_1_alg».proof.Proof.Gen.ReferenceIdeal.Read
import proofs.«133937_j15925738733697_1_alg».proof.Proof.Gen.Pre_finite_inputs
import proofs.«133937_j15925738733697_1_alg».proof.Proof.RefValue
import proofs.«133937_j15925738733697_1_alg».proof.Proof.KernelValue

noncomputable section

namespace Cert.Proof

open Idealize.ShloMosaic Idealize.ShloMosaic.TcCoe Idealize.ShloMosaic.ValueIdx Idealize.SL.Sem Cert.MoE

/-! ## The two results are one function of the launch arrays -/

/-- The score of slot `(e, r)` in the scores reshaped to `[8, 2048, 1]` is entry `e · 2048 + r` of the flat scores. -/
theorem score_eq (x5 : (⟨Cert.KernelIdeal.S16384, .f32⟩ : BufTy).Contents (Elt Ideal)) :
    (fun (e : Fin 8) (r : Fin 2048) =>
        shapeCast Cert.KernelIdeal.S8x2048x1 x5 Cert.KernelIdeal.Facts₀.shapeCasts_S16384_S8x2048x1 (ix3 e r (0 : Fin 1)))
      = fun e r => x5 (Cert.ReferenceIdeal.RefValue.slot e r) :=
  funext fun e => funext fun r =>
    shapeCast_apply x5 Cert.KernelIdeal.Facts₀.shapeCasts_S16384_S8x2048x1 (ix3 e r (0 : Fin 1)) (Cert.ReferenceIdeal.RefValue.slot e r) (by
      rw [Shape.rowMajor_val_one, Shape.rowMajor_val_three]
      show e.val * 2048 + r.val = (e.val * 2048 + r.val) * 1 + 0
      omega)

/-- The kernel program's result term is the reference's: the arrays handed to the scatter-add agree (the reference's
    read at an index is the specification, as is the kernel's), and the gather and the scatter-add around them are
    the same operations of the same token ids. -/
theorem result_eq (x0 : (⟨Cert.KernelIdeal.S8192x2048, .f32⟩ : BufTy).Contents (Elt Ideal))
    (x1 x2 : (⟨Cert.KernelIdeal.S8x2048x1024, .f32⟩ : BufTy).Contents (Elt Ideal))
    (x3 : (⟨Cert.KernelIdeal.S8x1024x2048, .f32⟩ : BufTy).Contents (Elt Ideal))
    (x4 : (⟨Cert.KernelIdeal.S16384, .i32⟩ : BufTy).Contents (Elt Ideal))
    (x5 : (⟨Cert.KernelIdeal.S16384, .f32⟩ : BufTy).Contents (Elt Ideal)) :
    Cert.ReferenceIdeal.Read.val_main_v32 (F := Ideal) x0 x1 x2 x3 x4 x5 = Cert.KernelIdeal.WholeValue.result x0 x1 x2 x3 x4 x5 := by
  unfold Cert.ReferenceIdeal.Read.val_main_v32 Cert.ReferenceIdeal.Read.val_main_v25 Cert.KernelIdeal.WholeValue.result
  rw [Cert.ReferenceIdeal.RefValue.out_eq, score_eq]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was printed for the ideal instance. -/
theorem preserves : Cert.preserves_Kernel_KernelIdeal := trivial

/-- Both idealized programs, from memories agreeing on the arguments, end with the result buffer at the same
    function of the launch arrays. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2.1]
  exact result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
